-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x8192 : Shape := ⟨2, ![2048, 8192]⟩
abbrev S8192x8192 : Shape := ⟨2, ![8192, 8192]⟩
abbrev S_ : Shape := ⟨0, ![]⟩

class Facts : Prop where
  bcast_S_S2048x8192 : S_.BroadcastsInDim S2048x8192 (![] : Fin 0 → Fin S2048x8192.rank)
  reducesTo_S2048x8192_S_d0_1 : S2048x8192.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S2048x8192 .f32) (main_arg1 : FVec F S2048x8192 .f32) (main_arg2 : FVec F S8192x8192 .f32) : IVec S_ 1 :=
  let main_v0 : FVec F S2048x8192 .f32 := Host.absf main_arg0
  let main_cst : FVec F S_ .f32 := constant S_ .f32 0x7F800000#32
  let main_v1 : FVec F S2048x8192 .f32 := broadcastInDim S2048x8192 ![] bcast_S_S2048x8192 main_cst
  let main_v2 : IVec S2048x8192 1 := cmpf .olt main_v0 main_v1
  let main_c : IVec S_ 1 := constantI S_ 1 1#1
  let main_v3 : IVec S_ 1 := (fun x v => Host.reduce IntOp.andi x v reducesTo_S2048x8192_S_d0_1 h_S_) main_v2 main_c
  let main_v4 : FVec F S2048x8192 .f32 := Host.absf main_arg1
  let main_cst_0 : FVec F S_ .f32 := constant S_ .f32 0x7F800000#32
  let main_v5 : FVec F S2048x8192 .f32 := broadcastInDim S2048x8192 ![] bcast_S_S2048x8192 main_cst_0
  let main_v6 : IVec S2048x8192 1 := cmpf .olt main_v4 main_v5
  let main_c_1 : IVec S_ 1 := constantI S_ 1 1#1
  let main_v7 : IVec S_ 1 := (fun x v => Host.reduce IntOp.andi x v reducesTo_S2048x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  main_v13
-- ==== Kernel.lean ====
abbrev S2048x8192 : Shape := ⟨2, ![2048, 8192]⟩
abbrev S8192x8192 : Shape := ⟨2, ![8192, 8192]⟩
abbrev S4096x8192 : Shape := ⟨2, ![4096, 8192]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2048x8192, .f32⟩
  | .hbm, ⟨1, _⟩ => ⟨S2048x8192, .f32⟩
  | .hbm, ⟨2, _⟩ => ⟨S8192x8192, .f32⟩
  | .hbm, ⟨3, _⟩ => ⟨S4096x8192, .f32⟩
  | .hbm, ⟨4, _⟩ => ⟨S4096x8192, .f32⟩
  | .hbm, ⟨5, _⟩ => ⟨S2048x8192, .f32⟩
  | .hbm, ⟨6, _⟩ => ⟨S2048x8192, .f32⟩
  | .local _ .vmem, ⟨0, _⟩ => ⟨S1024x512, .f32⟩
  | .local _ .vmem, ⟨1, _⟩ => ⟨S1024x512, .f32⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 16], ![false, false, false]⟩

def k0_cond2 (i : grid0.Coords) : BitVec 1 :=
  let arg2 : BitVec 32 := BitVec.ofNat 32 (i 2).val
  let c15_i32 : BitVec 32 := 15#32
  let v14 : BitVec 1 := Scalar.cmpi .eq arg2 c15_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  concatenates_S2048x8192_S2048x8192_S4096x8192_d0 : Shape.Concatenates [S2048x8192, S2048x8192] S4096x8192 0
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  slices_S4096x8192_S2048x8192_0_0 : S4096x8192.Slices ![0, 0] S2048x8192
  slices_S4096x8192_S2048x8192_2048_0 : S4096x8192.Slices ![2048, 0] S2048x8192
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x8192.size a
  hwx0_0 : ∀ i : grid0.Coords, EltTy.bits .f32 = 32 ∨ (Rect.block (s := S4096x8192) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x8192.size a
  hwx0_1 : ∀ i : grid0.Coords, EltTy.bits .f32 = 32 ∨ (Rect.block (s := S8192x8192) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x8192.size a
  hwx0_2 : ∀ i : grid0.Coords, EltTy.bits .f32 = 32 ∨ (Rect.block (s := S4096x8192) S1024x1024.size (cc0_transform_2 i) (hinb0_2 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2048x8192 : Shape := ⟨2, ![2048, 8192]⟩
abbrev S8192x8192 : Shape := ⟨2, ![8192, 8192]⟩

abbrev nBuf : Space → Nat
  | .hbm => 5
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S2048x8192, .f32⟩
  | .hbm, ⟨2, _⟩ => ⟨S8192x8192, .f32⟩
  | .hbm, ⟨3, _⟩ => ⟨S2048x8192, .f32⟩
  | .hbm, ⟨4, _⟩ => ⟨S2048x8192, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S2048x8192_S8192x8192_S2048x8192_1_0_0_1_n_n_wf : DotDims.WF S2048x8192 S8192x8192 S2048x8192 [1] [0] [0] [1] [] []

variable [Facts₀]

def dot_S2048x8192_S8192x8192_S2048x8192_1_0_0_1_n_n : DotDims S2048x8192 S8192x8192 S2048x8192 where
  lhsContracting := [1]
  rhsContracting := [0]
  lhsNonContracting := [0]
  rhsNonContracting := [1]
  lhsBatch := []
  rhsBatch := []
  wf := dot_S2048x8192_S8192x8192_S2048x8192_1_0_0_1_n_n_wf

class Facts : Prop extends Facts₀ where

variable [Facts]
-- ==== Proof.Pieces.lean ====
/-
  What one grid point leaves behind, case by case, as a value.

  The body keeps a running total in a scratch block that it carries from one grid point to the next.  At the
  first point of a contraction (the third grid coordinate is 0) it first stores the zero block there; at every
  point it then loads the two input blocks and the scratch, and stores "scratch + a · b" back into the scratch;
  at the last point of a contraction (the third coordinate is 15) it finally copies the scratch into the output
  block.  Each store covers its whole buffer, so what a buffer holds afterwards is the payload of the last store
  into it, and a load that follows a store reads that store's payload.  Hence, writing `step a b acc` for the
  body's "acc + a · b" and `zero` for the block of zeros:

    first point of a contraction   scratch = step a b zero
    a middle point                 scratch = step a b (scratch before)
    last point of a contraction    scratch = output block = step a b (scratch before)

  This holds for every reading of the floats, so it is stated for any instance.
-/
import proofs.«173550_j30494267801973_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- Every store and load of the body starts at the origin of its buffer. -/
theorem origin : (![0, 0] : Fin 2 → Nat) = fun _ => 0 := funext fun a => by fin_cases a <;> rfl

/-- The first point of a contraction leaves `zero + a · b` in the scratch: the zero block is stored, read back,
    and the sum stored over it. -/
theorem scratch_first (c : Dev nD) (i : grid0.Coords) (a3 : Memref sig .tc .vmem S1024x512 .f32) (h3 : a3.IsWhole)
    (a4 : Memref sig .tc .vmem S512x1024 .f32) (h4 : a4.IsWhole) (a5 : Memref sig .tc .vmem S1024x1024 .f32) (h5 : a5.IsWhole)
    (a6 : Memref sig .tc .vmem S1024x1024 .f32) (h6 : a6.IsWhole) (hc0 : cond0_0 i) (hc1 : ¬cond0_1 i)
    (a : Vec F S1024x512 .f32) (b : Vec F S512x1024 .f32) :
    sout0_A_0 c i a3 h3 a4 h4 a5 h5 a6 h6 hc0 hc1 a b = k0_pay2 a b (k0_pay1 (F := F)) := by
  unfold sout0_A_0
  rw [View.read_writes_eq_canon _ _ _ (scover0_A_0 c i a3 h3 a4 h4 a5 h5 a6 h6 hc0 hc1 a b)]
  unfold kernelRun0_A
  dsimp only
  sl_unfold_words
  rw [View.canon_cons_unit_zero (S := S1024x1024) origin, View.readCov_unit_zero (S := S1024x1024) _ origin]
  simp only [View.readAt_eq_ld, h3.read_unread, h4.read_unread, View.ld_unit_zero (S := S1024x512) origin,
    View.ld_unit_zero (S := S512x1024) origin]

/-- A middle point leaves `acc + a · b` in the scratch that held `acc`. -/
theorem scratch_middle (c : Dev nD) (i : grid0.Coords) (a3 : Memref sig .tc .vmem S1024x512 .f32) (h3 : a3.IsWhole)
    (a4 : Memref sig .tc .vmem S512x1024 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : ¬cond0_1 i)
    (a : Vec F S1024x512 .f32) (b : Vec F S512x1024 .f32) (acc : Vec F S1024x1024 .f32) :
    sout0_B_0 c i a3 h3 a4 h4 a5 h5 a6 h6 hc0 hc1 a b acc = k0_pay2 a b acc := by
  unfold sout0_B_0
  rw [View.read_writes_eq_canon _ _ _ (scover0_B_0 c i a3 h3 a4 h4 a5 h5 a6 h6 hc0 hc1 a b acc)]
  unfold kernelRun0_B
  dsimp only
  sl_unfold_words
  rw [View.canon_unit_zero (S := S1024x1024) origin]
  simp only [View.readAt_eq_ld, h3.read_unread, h4.read_unread, h6.read_unread, View.ld_unit_zero (S := S1024x512) origin,
    View.ld_unit_zero (S := S512x1024) origin, View.ld_unit_zero (S := S1024x1024) origin]

/-- The last point of a contraction leaves `acc + a · b` in the scratch that held `acc`, -/
theorem scratch_last (c : Dev nD) (i : grid0.Coords) (a3 : Memref sig .tc .vmem S1024x512 .f32) (h3 : a3.IsWhole)
    (a4 : Memref sig .tc .vmem S512x1024 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (a : Vec F S1024x512 .f32) (b : Vec F S512x1024 .f32) (acc : Vec F S1024x1024 .f32) :
    sout0_C_0 c i a3 h3 a4 h4 a5 h5 a6 h6 hc0 hc1 a b acc = k0_pay2 a b acc := by
  unfold sout0_C_0
  rw [View.read_writes_eq_canon _ _ _ (scover0_C_0 c i a3 h3 a4 h4 a5 h5 a6 h6 hc0 hc1 a b acc)]
  unfold kernelRun0_C
  dsimp only
  sl_unfold_words
  rw [View.canon_unit_zero (S := S1024x1024) origin]
  simp only [View.readAt_eq_ld, h3.read_unread, h4.read_unread, h6.read_unread, View.ld_unit_zero (S := S1024x512) origin,
    View.ld_unit_zero (S := S512x1024) origin, View.ld_unit_zero (S := S1024x1024) origin]

/-- and the same block in the output: the scratch just stored is read back and copied out. -/
theorem output_last (c : Dev nD) (i : grid0.Coords) (a3 : Memref sig .tc .vmem S1024x512 .f32) (h3 : a3.IsWhole)
    (a4 : Memref sig .tc .vmem S512x1024 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (a : Vec F S1024x512 .f32) (b : Vec F S512x1024 .f32) (acc : Vec F S1024x1024 .f32) :
    out0_C_2 c i a3 h3 a4 h4 a5 h5 a6 h6 hc0 hc1 a b acc = k0_pay2 a b acc := by
  unfold out0_C_2
  rw [View.read_writes_eq_canon _ _ _ (cover0_C_2 c i a3 h3 a4 h4 a5 h5 a6 h6 hc0 hc1 a b acc)]
  unfold kernelRun0_C
  dsimp only
  sl_unfold_words
  rw [View.canon_unit_zero (S := S1024x1024) origin, View.readCov_unit_zero (S := S1024x1024) _ origin]
  simp only [View.readAt_eq_ld, h3.read_unread, h4.read_unread, h6.read_unread, View.ld_unit_zero (S := S1024x512) origin,
    View.ld_unit_zero (S := S512x1024) origin, View.ld_unit_zero (S := S1024x1024) origin]

end Cert.KernelIdeal.Pieces

end
-- ==== Proof.StepValue.lean ====
/-
  One grid point's arithmetic, read at an index over the extended reals.

  There a change of float format is the identity and the matrix unit's product into a zero accumulator is the
  plain sum of products, so the body's "acc + a · b" at row p and column q of its [1024, 1024] block is
      acc[p, q] + ∑ l < 512, a[p, l] · b[l, q]
  for the [1024, 512] block `a` and the [512, 1024] block `b`, and the block the first point of a contraction
  stores is zero everywhere.
-/
import proofs.«173550_j30494267801973_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.StepValue

open Cert.KernelIdeal Cert.KernelIdeal.Gen Idealize.ShloMosaic Idealize.ShloMosaic.ValueIdx

/-- The block stored at the first point of a contraction is zero at every index. -/
theorem zero_apply (j : S1024x1024.Idx) : k0_pay1 (F := Ideal) j = 0 := by
  unfold k0_pay1
  simp only [shapeCast_self]
  exact Ideal.ofBits_zero_f32

/-- The left operand's index at output index `j` and contraction index `k`: row `j 0`, -/
theorem lhs_row (j : S1024x1024.Idx) (k : dot_S1024x512_S512x1024_S1024x1024_1_0_0_1_n_n.contr.Idx) :
    (dot_S1024x512_S512x1024_S1024x1024_1_0_0_1_n_n.lhsIdx j k 0).val = (j 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl
/-- column `k`. -/
theorem lhs_col (j : S1024x1024.Idx) (k : dot_S1024x512_S512x1024_S1024x1024_1_0_0_1_n_n.contr.Idx) :
    (dot_S1024x512_S512x1024_S1024x1024_1_0_0_1_n_n.lhsIdx j k 1).val = (k ⟨0, by decide⟩).val :=
  dot_S1024x512_S512x1024_S1024x1024_1_0_0_1_n_n.lhsIdx_val_of_single rfl j k
/-- The right operand's: row `k`, -/
theorem rhs_row (j : S1024x1024.Idx) (k : dot_S1024x512_S512x1024_S1024x1024_1_0_0_1_n_n.contr.Idx) :
    (dot_S1024x512_S512x1024_S1024x1024_1_0_0_1_n_n.rhsIdx j k 0).val = (k ⟨0, by decide⟩).val :=
  dot_S1024x512_S512x1024_S1024x1024_1_0_0_1_n_n.rhsIdx_val_of_single rfl j k
/-- column `j 1`. -/
theorem rhs_col (j : S1024x1024.Idx) (k : dot_S1024x512_S512x1024_S1024x1024_1_0_0_1_n_n.contr.Idx) :
    (dot_S1024x512_S512x1024_S1024x1024_1_0_0_1_n_n.rhsIdx j k 1).val = (j 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

/-- The matrix unit's product into the zero accumulator, at row `p` and column `q`: the sum over the 512
    contraction indices of the products of row `p` of the left block with column `q` of the right one. -/
theorem product_apply (a : FVec Ideal S1024x512 .bf16) (b : FVec Ideal S512x1024 .bf16) (p q : Fin 1024) :
    matmul dot_S1024x512_S512x1024_S1024x1024_1_0_0_1_n_n none a b (constant (F := Ideal) S1024x1024 .f32 0x00000000#32) (ix2 p q)
      = ∑ l : Fin 512, a (ix2 p l) * b (ix2 l q) := by
  refine (Ideal.matmul_constant_zero_apply dot_S1024x512_S512x1024_S1024x1024_1_0_0_1_n_n none a b (ix2 p q)).trans ?_
  rw [← Equiv.sum_comp (contrEquiv1 dot_S1024x512_S512x1024_S1024x1024_1_0_0_1_n_n 512 rfl rfl).symm]
  refine Finset.sum_congr rfl fun l _ => ?_
  have hl := contrEquiv1_symm_val dot_S1024x512_S512x1024_S1024x1024_1_0_0_1_n_n 512 rfl rfl l
  have el : dot_S1024x512_S512x1024_S1024x1024_1_0_0_1_n_n.lhsIdx (ix2 p q) ((contrEquiv1 dot_S1024x512_S512x1024_S1024x1024_1_0_0_1_n_n 512 rfl rfl).symm l) = ix2 p l := funext fun d => Fin.ext (by
    match d with
    | ⟨0, _⟩ => exact lhs_row _ _
    | ⟨1, _⟩ => exact (lhs_col _ _).trans hl)
  have er : dot_S1024x512_S512x1024_S1024x1024_1_0_0_1_n_n.rhsIdx (ix2 p q) ((contrEquiv1 dot_S1024x512_S512x1024_S1024x1024_1_0_0_1_n_n 512 rfl rfl).symm l) = ix2 l q := funext fun d => Fin.ext (by
    match d with
    | ⟨0, _⟩ => exact (rhs_row _ _).trans hl
    | ⟨1, _⟩ => exact rhs_col _ _)
  rw [el, er]

/-- The body's "acc + a · b" at row `p` and column `q`. -/
theorem step_apply (a : Vec Ideal S1024x512 .f32) (b : Vec Ideal S512x1024 .f32) (acc : Vec Ideal S1024x1024 .f32)
    (p q : Fin 1024) :
    k0_pay2 (F := Ideal) a b acc (ix2 p q) = acc (ix2 p q) + ∑ l : Fin 512, a (ix2 p l) * b (ix2 l q) := by
  unfold k0_pay2
  simp only [shapeCast_self]
  refine (addf_apply _ _ (ix2 p q)).trans ?_
  refine congrArg (acc (ix2 p q) + ·) ?_
  exact product_apply _ _ p q

end Cert.KernelIdeal.StepValue

end
-- ==== Proof.DotSum.lean ====
/-
  Row-by-column products as a function of a natural number, so that a contraction taken in consecutive
  blocks can be added up with sums over ranges of naturals.

  For an [M, K] array X and a [K, N] array W over the extended reals, `term X W R C k` is X[R, k] · W[k, C]
  when the three coordinates are inside the arrays and zero otherwise.  The whole contraction of row R with
  column C is the sum of the terms over `range K`; a block of b consecutive products starting at k₀ is the
  sum of the terms k₀ + l over `range b`; and adding the next block to the sum of the first n blocks gives
  the sum of the first n + 1 blocks.  None of this needs the entries to be finite: addition on the extended
  reals is a commutative monoid, and that is all a sum over a range uses.
-/
import Idealize.ShloMosaic.Lib.ValueIdx
import Idealize.ShloMosaic.PureOps.Ideal

noncomputable section

namespace Cert.DotSum

open Finset Idealize.ShloMosaic Idealize.ShloMosaic.ValueIdx

variable {M K N : ℕ}

/-- The k-th product of row `R` of `X` with column `C` of `W`; zero when a coordinate is outside the arrays. -/
def term (X : (⟨2, ![M, K]⟩ : Shape).Idx → EReal) (W : (⟨2, ![K, N]⟩ : Shape).Idx → EReal) (R C k : ℕ) : EReal :=
  if h : R < M ∧ k < K ∧ C < N then X (ix2 ⟨R, h.1⟩ ⟨k, h.2.1⟩) * W (ix2 ⟨k, h.2.1⟩ ⟨C, h.2.2⟩) else 0

/-- Inside the arrays the term is the product. -/
theorem term_of_lt (X : (⟨2, ![M, K]⟩ : Shape).Idx → EReal) (W : (⟨2, ![K, N]⟩ : Shape).Idx → EReal) (R C k : ℕ)
    (hR : R < M) (hk : k < K) (hC : C < N) :
    term X W R C k = X (ix2 ⟨R, hR⟩ ⟨k, hk⟩) * W (ix2 ⟨k, hk⟩ ⟨C, hC⟩) := by
  unfold term
  rw [dif_pos ⟨hR, hk, hC⟩]

/-- The whole contraction of row `r` with column `c` is the sum of the terms below `K`. -/
theorem sum_whole (X : (⟨2, ![M, K]⟩ : Shape).Idx → EReal) (W : (⟨2, ![K, N]⟩ : Shape).Idx → EReal) (r : Fin M) (c : Fin N) :
    ∑ k : Fin K, X (ix2 r k) * W (ix2 k c) = ∑ k ∈ range K, term X W r.val c.val k := by
  rw [← Fin.sum_univ_eq_sum_range (fun k => term X W r.val c.val k) K]
  exact Finset.sum_congr rfl fun k _ => (term_of_lt X W r.val c.val k.val r.isLt k.isLt c.isLt).symm

/-- A block of `b` products whose l-th one is the term `k₀ + l` is the sum of those terms. -/
theorem sum_block {b : ℕ} (g : Fin b → EReal) (f : ℕ → EReal) (k₀ : ℕ) (hg : ∀ l : Fin b, g l = f (k₀ + l.val)) :
    ∑ l : Fin b, g l = ∑ l ∈ range b, f (k₀ + l) := by
  rw [← Fin.sum_univ_eq_sum_range (fun l => f (k₀ + l)) b]
  exact Finset.sum_congr rfl fun l _ => hg l

/-- The first `n` blocks of `b` terms, plus the next block, are the first `n + 1` blocks. -/
theorem add_block (f : ℕ → EReal) (b n : ℕ) :
    ∑ k ∈ range (b * n), f k + ∑ l ∈ range b, f (b * n + l) = ∑ k ∈ range (b * (n + 1)), f k := by
  rw [Nat.mul_succ, Finset.sum_range_add]

/-- Zero plus the first block is the first block. -/
theorem first_block (f : ℕ → EReal) (b : ℕ) :
    (0 : EReal) + ∑ l ∈ range b, f (b * 0 + l) = ∑ k ∈ range (b * (0 + 1)), f k := by
  rw [← add_block f b 0, Nat.mul_zero, Finset.sum_range_zero]

end Cert.DotSum

end
-- ==== Proof.Accumulate.lean ====
/-
  The running total, grid point by grid point, over the extended reals.

  The grid is 4 × 8 × 16, walked with the last coordinate fastest: point n has row block n / 128, column block
  n / 16 % 8 and contraction block n % 16.  The left window's block at point n is rows 1024·(n / 128) … of the
  stacked [4096, 8192] array and columns 512·(n % 16) … of it; the right window's block is rows 512·(n % 16) … and
  columns 1024·(n / 16 % 8) … of the [8192, 8192] matrix.  So the step at point n adds, at row p and column q of
  the block, the 512 products number 512·(n % 16) … 512·(n % 16) + 511 of row 1024·(n / 128) + p of the stacked
  array with column 1024·(n / 16 % 8) + q of the matrix.  By induction on n the scratch after point n holds the
  sum of the first 512·(n % 16 + 1) of those products: at the first point of a contraction the total starts from
  zero, and every later point of the same contraction has the same row and column block as the point before it and
  adds the next 512 products.  After the last point of a contraction (n % 16 = 15) that is all 8192 products, and
  the output block holds the same values.
-/
import proofs.«173550_j30494267801973_1_alg».proof.Proof.Pieces
import proofs.«173550_j30494267801973_1_alg».proof.Proof.StepValue
import proofs.«173550_j30494267801973_1_alg».proof.Proof.DotSum

noncomputable section

namespace Cert.KernelIdeal.Accumulate

open Cert.KernelIdeal Cert.KernelIdeal.Gen Idealize.ShloMosaic Idealize.ShloMosaic.TcCoe Idealize.ShloMosaic.ValueIdx Idealize.SL.Sem Finset

variable (m : (ℓ : Loc nD τ sig) → Buf (Elt Ideal) ℓ)

/-- The stacked [4096, 8192] array as the kernel finds it. -/
def stacked (c : Dev nD) : S4096x8192.Idx → EReal := V m c main_v0
/-- The [8192, 8192] matrix as the kernel finds it. -/
def matrix (c : Dev nD) : S8192x8192.Idx → EReal := V m c main_arg2

/-- The left window's [1024, 512] block at grid point `t`. -/
def left (c : Dev nD) (t : Fin cfg0.N) : Vec Ideal S1024x512 .f32 := iblk m c 0 t
/-- The right window's [512, 1024] block at grid point `t`. -/
def right (c : Dev nD) (t : Fin cfg0.N) : Vec Ideal S512x1024 .f32 := iblk m c 1 t

/-- The k-th product of row `R` of the stacked array with column `C` of the matrix. -/
abbrev prod (c : Dev nD) (R C : ℕ) : ℕ → EReal := DotSum.term (stacked m c) (matrix m c) R C

/-- Which block each window is on at each grid point. -/
theorem index_facts : ∀ t : Fin cfg0.N,
    win0_0.index t (0 : Fin 2) = t.val / 128 ∧ win0_0.index t (1 : Fin 2) = t.val % 16
    ∧ win0_1.index t (0 : Fin 2) = t.val % 16 ∧ win0_1.index t (1 : Fin 2) = t.val / 16 % 8
    ∧ win0_2.index t (0 : Fin 2) = t.val / 128 ∧ win0_2.index t (1 : Fin 2) = t.val / 16 % 8 :=
  (by decide +kernel : ∀ t : Fin grid0.N, _)

/-- The left block at point `t`, at row `p` and column `l`, is the stacked array at row 1024·(t / 128) + p and
    column 512·(t % 16) + l. -/
theorem read_left (c : Dev nD) (t : Fin cfg0.N) (p : Fin 1024) (l : Fin 512) (R : Fin 4096) (k : Fin 8192)
    (hR : R.val = 1024 * (t.val / 128) + p.val) (hk : k.val = 512 * (t.val % 16) + l.val) :
    left m c t (ix2 p l) = stacked m c (ix2 R k) := by
  obtain ⟨e0, e1, -⟩ := index_facts t
  unfold left iblk
  rw [View.read_apply]
  show stacked m c _ = stacked m c _
  refine congrArg (stacked m c) (funext fun a => Fin.ext ?_)
  match a with
  | ⟨0, _⟩ => show win0_0.index t (0 : Fin 2) * 1024 + 1 * p.val = R.val; rw [e0, hR]; omega
  | ⟨1, _⟩ => show win0_0.index t (1 : Fin 2) * 512 + 1 * l.val = k.val; rw [e1, hk]; omega

/-- The right block at point `t`, at row `l` and column `q`, is the matrix at row 512·(t % 16) + l and column
    1024·(t / 16 % 8) + q. -/
theorem read_right (c : Dev nD) (t : Fin cfg0.N) (l : Fin 512) (q : Fin 1024) (k : Fin 8192) (C : Fin 8192)
    (hk : k.val = 512 * (t.val % 16) + l.val) (hC : C.val = 1024 * (t.val / 16 % 8) + q.val) :
    right m c t (ix2 l q) = matrix m c (ix2 k C) := by
  obtain ⟨-, -, e2, e3, -⟩ := index_facts t
  unfold right iblk
  rw [View.read_apply]
  show matrix m c _ = matrix m c _
  refine congrArg (matrix m c) (funext fun a => Fin.ext ?_)
  match a with
  | ⟨0, _⟩ => show win0_1.index t (0 : Fin 2) * 512 + 1 * l.val = k.val; rw [e2, hk]; omega
  | ⟨1, _⟩ => show win0_1.index t (1 : Fin 2) * 1024 + 1 * q.val = C.val; rw [e3, hC]; omega

/-- The 512 products of point `t`'s two blocks at row `p` and column `q` are the products number
    512·(t % 16) + l of the row and column they sit in. -/
theorem block_sum (c : Dev nD) (t : Fin cfg0.N) (p q : Fin 1024) :
    ∑ l : Fin 512, left m c t (ix2 p l) * right m c t (ix2 l q)
      = ∑ l ∈ range 512, prod m c (1024 * (t.val / 128) + p.val) (1024 * (t.val / 16 % 8) + q.val) (512 * (t.val % 16) + l) := by
  have hN : t.val < 512 := lt_of_lt_of_eq t.isLt (show cfg0.N = 512 from N_0)
  have hp := p.isLt
  have hq := q.isLt
  refine DotSum.sum_block _ _ _ fun l => ?_
  have hl := l.isLt
  have hR : 1024 * (t.val / 128) + p.val < 4096 := by omega
  have hk : 512 * (t.val % 16) + l.val < 8192 := by omega
  have hC : 1024 * (t.val / 16 % 8) + q.val < 8192 := by omega
  refine Eq.trans ?_ (DotSum.term_of_lt (stacked m c) (matrix m c) _ _ _ hR hk hC).symm
  rw [read_left m c t p l ⟨_, hR⟩ ⟨_, hk⟩ rfl rfl, read_right m c t l q ⟨_, hk⟩ ⟨_, hC⟩ rfl rfl]

/-- The step at point `t`, at row `p` and column `q`: the total so far plus the point's 512 products. -/
theorem step_at (c : Dev nD) (t : Fin cfg0.N) (acc : Vec Ideal S1024x1024 .f32) (p q : Fin 1024) :
    k0_pay2 (F := Ideal) (iblk m c 0 t) (iblk m c 1 t) acc (ix2 p q)
      = acc (ix2 p q) + ∑ l ∈ range 512, prod m c (1024 * (t.val / 128) + p.val) (1024 * (t.val / 16 % 8) + q.val) (512 * (t.val % 16) + l) :=
  (StepValue.step_apply (left m c t) (right m c t) acc p q).trans (congrArg (acc (ix2 p q) + ·) (block_sum m c t p q))

/-- The scratch after the first point of a contraction: the step onto the zero block. -/
theorem scratch_at_first (c : Dev nD) (t : Fin cfg0.N) (h0 : t.val % 16 = 0) :
    (outsAt0 m c t.val t.isLt).2 = k0_pay2 (iblk m c 0 t) (iblk m c 1 t) (k0_pay1 (F := Ideal)) := by
  have h1 : ¬t.val % 16 = 15 := by omega
  rw [outsAt0_A m c t h0 h1]
  dsimp only
  rw [Pieces.scratch_first]

/-- The scratch after any later point of a contraction: the step onto what the point before left. -/
theorem scratch_at_next (c : Dev nD) (t : Fin cfg0.N) (h0 : ¬t.val % 16 = 0) :
    (outsAt0 m c t.val t.isLt).2
      = k0_pay2 (iblk m c 0 t) (iblk m c 1 t) (outsAt0 m c (t.val - 1) (Nat.lt_of_le_of_lt (Nat.sub_le _ _) t.isLt)).2 := by
  by_cases h1 : t.val % 16 = 15
  · rw [outsAt0_C m c t h0 h1]
    dsimp only
    rw [Pieces.scratch_last]
  · rw [outsAt0_B m c t h0 h1]
    dsimp only
    rw [Pieces.scratch_middle]

/-- After the last point of a contraction the output block holds what the scratch holds. -/
theorem output_at_last (c : Dev nD) (t : Fin cfg0.N) (h15 : t.val % 16 = 15) :
    (outsAt0 m c t.val t.isLt).1 = (outsAt0 m c t.val t.isLt).2 := by
  have h0 : ¬t.val % 16 = 0 := by omega
  rw [outsAt0_C m c t h0 h15]
  dsimp only
  rw [Pieces.output_last, Pieces.scratch_last]

/-- THE RUNNING TOTAL.  After point `n` the scratch holds, at row `p` and column `q`, the sum of the first
    512·(n % 16 + 1) products of row 1024·(n / 128) + p of the stacked array with column 1024·(n / 16 % 8) + q of the
    matrix. -/
theorem scratch_eq (c : Dev nD) (n : ℕ) : ∀ (h : n < cfg0.N) (p q : Fin 1024),
    (outsAt0 m c n h).2 (ix2 p q)
      = ∑ k ∈ range (512 * (n % 16 + 1)), prod m c (1024 * (n / 128) + p.val) (1024 * (n / 16 % 8) + q.val) k := by
  induction n with
  | zero =>
    intro h p q
    rw [scratch_at_first m c ⟨0, h⟩ rfl, step_at m c ⟨0, h⟩ _ p q, StepValue.zero_apply]
    exact DotSum.first_block _ 512
  | succ n ih =>
    intro h p q
    by_cases h0 : (n + 1) % 16 = 0
    · rw [scratch_at_first m c ⟨n + 1, h⟩ h0, step_at m c ⟨n + 1, h⟩ _ p q, StepValue.zero_apply]
      show (0 : EReal) + ∑ l ∈ range 512, prod m c (1024 * ((n + 1) / 128) + p.val) (1024 * ((n + 1) / 16 % 8) + q.val) (512 * ((n + 1) % 16) + l) = _
      rw [h0]
      exact DotSum.first_block _ 512
    · rw [scratch_at_next m c ⟨n + 1, h⟩ h0, step_at m c ⟨n + 1, h⟩ _ p q]
      show (outsAt0 m c n _).2 (ix2 p q) + ∑ l ∈ range 512, prod m c (1024 * ((n + 1) / 128) + p.val) (1024 * ((n + 1) / 16 % 8) + q.val) (512 * ((n + 1) % 16) + l) = _
      rw [ih (Nat.lt_of_succ_lt h) p q]
      have e1 : n / 128 = (n + 1) / 128 := by omega
      have e2 : n / 16 % 8 = (n + 1) / 16 % 8 := by omega
      have e3 : n % 16 + 1 = (n + 1) % 16 := by omega
      rw [e1, e2, e3]
      exact DotSum.add_block _ 512 ((n + 1) % 16)

/-- After the last point of a contraction the output block holds, at row `p` and column `q`, all 8192 products of
    its row of the stacked array with its column of the matrix. -/
theorem output_eq (c : Dev nD) (t : Fin cfg0.N) (h15 : t.val % 16 = 15) (p q : Fin 1024) :
    (outsAt0 m c t.val t.isLt).1 (ix2 p q)
      = ∑ k ∈ range 8192, prod m c (1024 * (t.val / 128) + p.val) (1024 * (t.val / 16 % 8) + q.val) k := by
  rw [output_at_last m c t h15, scratch_eq m c t.val t.isLt p q, h15]

/-- The same at an index `j` of the block. -/
theorem output_apply (c : Dev nD) (t : Fin cfg0.N) (h15 : t.val % 16 = 15) (j : S1024x1024.Idx) :
    (outsAt0 m c t.val t.isLt).1 j
      = ∑ k ∈ range 8192, prod m c (1024 * (t.val / 128) + (j 0).val) (1024 * (t.val / 16 % 8) + (j 1).val) k :=
  (congrArg (outsAt0 m c t.val t.isLt).1 (eq_ix2 j)).trans (output_eq m c t h15 (j 0) (j 1))

end Cert.KernelIdeal.Accumulate

end
-- ==== Proof.Result.lean ====
/-
  From the output blocks to the two results.

  The output window's block at grid point t is rows 1024·(t / 128) … and columns 1024·(t / 16 % 8) … of the
  [4096, 8192] output array, and it is written back exactly at the last point of each contraction
  (t % 16 = 15).  At such a point the block holds, at row p and column q, all 8192 products of row
  1024·(t / 128) + p of the stacked array with column 1024·(t / 16 % 8) + q of the matrix — that is, entry
  (1024·(t / 128) + p, 1024·(t / 16 % 8) + q) of the product of the stacked array with the matrix.  Every entry
  (r, s) of the output array lies in the block written back at the point with row block r / 1024, column block
  s / 1024 and contraction block 15, so the output array ends holding the whole product.

  The stacked array is the two [2048, 8192] arguments one above the other, and the two results are the top and
  bottom halves of the output array: so the first result's entry (r, s) is the contraction of row r of the first
  argument with column s of the matrix, and the second result's the same for the second argument.
-/
import proofs.«173550_j30494267801973_1_alg».proof.Proof.Accumulate
import Idealize.ShloMosaic.Lib.StableHlo.Run

noncomputable section

namespace Cert.KernelIdeal.Result

open Cert.KernelIdeal Cert.KernelIdeal.Gen Cert.KernelIdeal.Accumulate Idealize.ShloMosaic Idealize.ShloMosaic.TcCoe
open Idealize.ShloMosaic.ValueIdx Idealize.ShloMosaic.StableHlo Idealize.SL.Sem Finset
open Idealize.ShloMosaic.Pipeline (Dat)

variable (m : (ℓ : Loc nD τ sig) → Buf (Elt Ideal) ℓ) (ρ : Dev nD → PrngReg)

/-- The product of the stacked array with the matrix, entry by entry: entry (r, s) is the sum of all 8192 products
    of row r of the stacked array with column s of the matrix. -/
def productAt (c : Dev nD) : S4096x8192.Idx → EReal :=
  fun i => ∑ k ∈ range 8192, prod m c (i 0).val (i 1).val k
/-- The same as contents of the output array. -/
abbrev product (c : Dev nD) : Buf (Elt Ideal) ((c : Thread nD τ).loc main_v1) := productAt m c

/-- What the last point of a contraction writes back is its block of the product. -/
theorem flushed_eq (c : Dev nD) (t : Fin cfg0.N) (hf : (cfg0.win 2).flush t = true) :
    (dats m 0 c).flushed 2 t = ((cfg0.win 2).blk t).view.read (Elt Ideal) (product m c) := by
  have h15 : t.val % 16 = 15 := (flush0_2 t).mp hf
  obtain ⟨-, -, -, -, e4, e5⟩ := index_facts t
  show (cfg0.win 2).cut (grid0.coords t) ((dats m 0 c).after 2 t) = _
  rw [after0_2]
  funext j
  show (outsAt0 m c t.val t.isLt).1 j = productAt m c (((cfg0.win 2).blk t).view.emb j)
  have r0 : ((((cfg0.win 2).blk t).view.emb j) 0).val = 1024 * (t.val / 128) + (j 0).val := by
    show win0_2.index t (0 : Fin 2) * 1024 + 1 * (j 0).val = _
    rw [e4]; omega
  have r1 : ((((cfg0.win 2).blk t).view.emb j) 1).val = 1024 * (t.val / 16 % 8) + (j 1).val := by
    show win0_2.index t (1 : Fin 2) * 1024 + 1 * (j 1).val = _
    rw [e5]; omega
  refine (output_apply m c t h15 j).trans ?_
  exact (congrArg₂ (fun R C => ∑ k ∈ range 8192, prod m c R C k) r0 r1).symm

/-- An entry of the output array is in point `t`'s block iff each coordinate is in the block's range. -/
theorem mem_blk (t : Fin cfg0.N) (i : S4096x8192.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v1).slice (win0_2.rect t)).set ↔ _
  rw [View.set_slice_whole, Rect.mem_set_unit]
  exact Iff.rfl

/-- Every entry of the output array is in a block that is written back. -/
theorem cover (i : S4096x8192.Idx) :
    ∃ t : Fin cfg0.N, (cfg0.win 2).flush t = true ∧ i ∈ ((cfg0.win 2).blk t).view.set := by
  have hi0 : (i 0).val < 4096 := (i 0).isLt
  have hi1 : (i 1).val < 8192 := (i 1).isLt
  have hN : cfg0.N = 512 := N_0
  obtain ⟨t, ht⟩ : ∃ t : Fin cfg0.N, t.val = ((i 0).val / 1024 * 8 + (i 1).val / 1024) * 16 + 15 :=
    ⟨⟨((i 0).val / 1024 * 8 + (i 1).val / 1024) * 16 + 15, by rw [hN]; omega⟩, rfl⟩
  obtain ⟨-, -, -, -, e4, e5⟩ := index_facts t
  refine ⟨t, (flush0_2 t).mpr (by omega), ?_⟩
  rw [mem_blk]
  intro a
  match a with
  | ⟨0, _⟩ =>
    show win0_2.index t (0 : Fin 2) * 1024 ≤ (i 0).val ∧ (i 0).val < win0_2.index t (0 : Fin 2) * 1024 + 1024
    rw [e4]; omega
  | ⟨1, _⟩ =>
    show win0_2.index t (1 : Fin 2) * 1024 ≤ (i 1).val ∧ (i 1).val < win0_2.index t (1 : Fin 2) * 1024 + 1024
    rw [e5]; omega

/-- So the output array ends holding the product. -/
theorem final (c : Dev nD) : (dats m 0 c).arrAt 2 cfg0.N = product m c :=
  (dats m 0 c).arrAt_eq_of_cover 2 (product m c) (flushed_eq m c) cover

/-- The stacked array is the first argument above the second. -/
theorem stacked_eq (c : Dev nD) :
    stacked m c = concatenate S4096x8192 0 [⟨S2048x8192, m ((c : Thread nD τ).loc main_arg0)⟩, ⟨S2048x8192, m ((c : Thread nD τ).loc main_arg1)⟩]
      concatenates_S2048x8192_S2048x8192_S4096x8192_d0 := by
  unfold stacked
  show StableHlo.after hostOps0 (fun b => m (c, b)) (Proc.devRef .tc main_v0) = _
  after_results <;> rfl

/-- Its first 2048 rows are the first argument's, -/
theorem stacked_top (c : Dev nD) (r : Fin 2048) (k : Fin 8192) (R : Fin 4096) (hR : R.val = r.val) :
    stacked m c (ix2 R k) = (m ((c : Thread nD τ).loc main_arg0) : S2048x8192.Idx → EReal) (ix2 r k) := by
  rw [stacked_eq]
  exact concatenate_pair_apply_left (t := S4096x8192) (s₁ := S2048x8192) (s₂ := S2048x8192) (0 : Fin 2) _ _ _ (ix2 R k) rfl (ix2 r k)
    (fun b => by
      match b with
      | ⟨0, _⟩ => exact hR.symm
      | ⟨1, _⟩ => rfl)

/-- its last 2048 rows the second argument's. -/
theorem stacked_bottom (c : Dev nD) (r : Fin 2048) (k : Fin 8192) (R : Fin 4096) (hR : R.val = 2048 + r.val) :
    stacked m c (ix2 R k) = (m ((c : Thread nD τ).loc main_arg1) : S2048x8192.Idx → EReal) (ix2 r k) := by
  rw [stacked_eq]
  exact concatenate_pair_apply_right (t := S4096x8192) (s₁ := S2048x8192) (s₂ := S2048x8192) (0 : Fin 2) _ _ _ (ix2 R k) rfl rfl (ix2 r k)
    (fun b hb => by
      match b with
      | ⟨0, _⟩ => exact absurd rfl hb
      | ⟨1, _⟩ => rfl)
    (by show r.val + 2048 = R.val; omega)

/-- The matrix is the third argument. -/
theorem matrix_eq (c : Dev nD) : matrix m c = m ((c : Thread nD τ).loc main_arg2) := V_main_arg2 m c

/-- Rows of `x` contracted with columns of `w`: entry (r, s) is ∑ k, x[r, k] · w[k, s]. -/
def rowsTimes (x : S2048x8192.Idx → EReal) (w : S8192x8192.Idx → EReal) : S2048x8192.Idx → EReal :=
  fun i => ∑ k : Fin 8192, x (ix2 ⟨(i 0).val, idx2_lt0 i⟩ k) * w (ix2 k ⟨(i 1).val, idx2_lt1 i⟩)

/-- The first result, rows 0 … 2047 of the output array, is the first argument's rows times the matrix. -/
theorem top_eq (c : Dev nD) :
    Pipeline.afterTail₀ cfgs (dats m) 0 (V0 m) [hostOps1] c main_v2
      = rowsTimes (m ((c : Thread nD τ).loc main_arg0)) (m ((c : Thread nD τ).loc main_arg2)) := by
  unfold Pipeline.afterTail₀
  show StableHlo.after hostOps1 _ (Proc.devRef .tc main_v2) = _
  after_results
  rw [(Pipeline.withArrays_arr spec0 launch0.win.arr_inj c _ _ 2).trans (final m c)]
  funext i
  have hi0 := idx2_lt0 i
  have hi1 := idx2_lt1 i
  refine (extractStridedSlice_apply ![0, 0] (product m c) slices_S4096x8192_S2048x8192_0_0 i
    (ix2 (⟨(i 0).val, by omega⟩ : Fin 4096) (⟨(i 1).val, hi1⟩ : Fin 8192)) (fun a => by
      match a with
      | ⟨0, _⟩ => show (i 0).val = 0 + (i 0).val; omega
      | ⟨1, _⟩ => show (i 1).val = 0 + (i 1).val; omega)).trans ?_
  show ∑ k ∈ range 8192, prod m c (i 0).val (i 1).val k = _
  refine (DotSum.sum_whole (stacked m c) (matrix m c) (⟨(i 0).val, by omega⟩ : Fin 4096) (⟨(i 1).val, hi1⟩ : Fin 8192)).symm.trans ?_
  unfold rowsTimes
  refine Finset.sum_congr rfl fun k _ => ?_
  rw [stacked_top m c ⟨(i 0).val, hi0⟩ k _ rfl, matrix_eq]

/-- The second result, rows 2048 … 4095 of the output array, is the second argument's rows times the matrix. -/
theorem bottom_eq (c : Dev nD) :
    Pipeline.afterTail₀ cfgs (dats m) 0 (V0 m) [hostOps1] c main_v3
      = rowsTimes (m ((c : Thread nD τ).loc main_arg1)) (m ((c : Thread nD τ).loc main_arg2)) := by
  unfold Pipeline.afterTail₀
  show StableHlo.after hostOps1 _ (Proc.devRef .tc main_v3) = _
  after_results
  rw [(Pipeline.withArrays_arr spec0 launch0.win.arr_inj c _ _ 2).trans (final m c)]
  funext i
  have hi0 := idx2_lt0 i
  have hi1 := idx2_lt1 i
  refine (extractStridedSlice_apply ![2048, 0] (product m c) slices_S4096x8192_S2048x8192_2048_0 i
    (ix2 (⟨2048 + (i 0).val, by omega⟩ : Fin 4096) (⟨(i 1).val, hi1⟩ : Fin 8192)) (fun a => by
      match a with
      | ⟨0, _⟩ => show 2048 + (i 0).val = 2048 + (i 0).val; rfl
      | ⟨1, _⟩ => show (i 1).val = 0 + (i 1).val; omega)).trans ?_
  show ∑ k ∈ range 8192, prod m c (2048 + (i 0).val) (i 1).val k = _
  refine (DotSum.sum_whole (stacked m c) (matrix m c) (⟨2048 + (i 0).val, by omega⟩ : Fin 4096) (⟨(i 1).val, hi1⟩ : Fin 8192)).symm.trans ?_
  unfold rowsTimes
  refine Finset.sum_congr rfl fun k _ => ?_
  rw [stacked_bottom m c ⟨(i 0).val, hi0⟩ k _ rfl, matrix_eq]

/-- The run, read: every weakly fair execution ends with the two results at the two arguments' rows times the
    matrix, and the three arguments as they were. -/
theorem run : θ_run defs (onTc (τ := τ) (main (F := Ideal))) ⟨m, fun _ => 0, ρ⟩ fun r => ∀ c : Dev nD,
      r.2.mem ((c : Thread nD τ).loc main_v2) = rowsTimes (m ((c : Thread nD τ).loc main_arg0)) (m ((c : Thread nD τ).loc main_arg2))
      ∧ r.2.mem ((c : Thread nD τ).loc main_v3) = rowsTimes (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v2 (Pipeline.mem_restRefs_of main_v2 (by decide) (by decide))).trans (top_eq m c),
      ((h c).2 main_v3 (Pipeline.mem_restRefs_of main_v3 (by decide) (by decide))).trans (bottom_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c)))⟩)
    (run_main m ρ)

end Cert.KernelIdeal.Result

end
-- ==== Proof.Reference.lean ====
/-
  The reference's side: each of its two results is one whole contraction.

  Over the extended reals the host's dot product of a [2048, 8192] array `x` with the [8192, 8192] matrix `w`,
  contracting the second axis of the first with the first axis of the second, has at entry (r, s) the value
  ∑ k < 8192, x[r, k] · w[k, s] — the function the kernel's two results were shown to be, of the same arrays.
-/
import proofs.«173550_j30494267801973_1_alg».proof.Proof.Gen.ReferenceIdeal.Read
import proofs.«173550_j30494267801973_1_alg».proof.Proof.Result

noncomputable section

namespace Cert.ReferenceIdeal.RefValue

open Cert.ReferenceIdeal Cert.ReferenceIdeal.Gen Idealize.ShloMosaic Idealize.ShloMosaic.ValueIdx

/-- The host's dot product is rows times the matrix. -/
theorem dot_eq (x : FVec Ideal S2048x8192 .f32) (w : FVec Ideal S8192x8192 .f32) :
    Host.dotGeneral (F := Ideal) dot_S2048x8192_S8192x8192_S2048x8192_1_0_0_1_n_n none x w = Cert.KernelIdeal.Result.rowsTimes x w := by
  show Read.val_main_v0 (F := Ideal) x w = _
  funext i
  rw [Read.val_main_v0_apply]
  unfold Cert.KernelIdeal.Result.rowsTimes
  refine Finset.sum_congr rfl fun k _ => ?_
  have el : Read.lidx_main_v0 i k = ix2 ⟨(i 0).val, idx2_lt0 i⟩ k := funext fun a => Fin.ext (by
    match a with
    | ⟨0, _⟩ => rfl
    | ⟨1, _⟩ => rfl)
  have er : Read.ridx_main_v0 i k = ix2 k ⟨(i 1).val, idx2_lt1 i⟩ := funext fun a => Fin.ext (by
    match a with
    | ⟨0, _⟩ => rfl
    | ⟨1, _⟩ => rfl)
  rw [el, er]

end Cert.ReferenceIdeal.RefValue

end
-- ==== Proof.lean ====
/-
  The kernel stacks its two [2048, 8192] arguments into one [4096, 8192] array, multiplies that by the
  [8192, 8192] matrix in 1024 × 1024 output blocks — each accumulated over sixteen 512-wide slices of the
  contraction, starting from zero, in a scratch block carried across the grid's third axis, with the operands
  rounded to bf16 on the way into the matrix unit — and returns the top and bottom halves of the product.  The
  reference multiplies each argument by the matrix directly.

  Over the extended reals rounding is the identity and a matrix product is a sum of products, so entry (r, s) of
  the kernel's first result is ((0 + S₀) + S₁) + … + S₁₅ with Sₖ the sum of the 512 products x0[r, 512k + l] ·
  w[512k + l, s], and the reference's is the one sum of all 8192 products x0[r, k] · w[k, s]; likewise for the
  second result with x1.  The two are equal because addition on the extended reals is commutative and
  associative with zero its unit; no finiteness of the inputs is needed, and the precondition is never opened.

  The three frames are the generated ones (the reference's is its generated run with the results dropped), and
  the idealization rewrote no operation, so there is nothing to preserve.
-/
import proofs.«173550_j30494267801973_1_alg».proof.Defs
import proofs.«173550_j30494267801973_1_alg».proof.Proof.Gen.Kernel
import proofs.«173550_j30494267801973_1_alg».proof.Proof.Gen.Kernel.Skeleton
import proofs.«173550_j30494267801973_1_alg».proof.Proof.Gen.Kernel.Launch
import proofs.«173550_j30494267801973_1_alg».proof.Proof.Gen.Kernel.Points
import proofs.«173550_j30494267801973_1_alg».proof.Proof.Gen.Kernel.Frame
import proofs.«173550_j30494267801973_1_alg».proof.Proof.Gen.KernelIdeal
import proofs.«173550_j30494267801973_1_alg».proof.Proof.Gen.KernelIdeal.Skeleton
import proofs.«173550_j30494267801973_1_alg».proof.Proof.Gen.KernelIdeal.Launch
import proofs.«173550_j30494267801973_1_alg».proof.Proof.Gen.KernelIdeal.Points
import proofs.«173550_j30494267801973_1_alg».proof.Proof.Gen.KernelIdeal.Frame
import proofs.«173550_j30494267801973_1_alg».proof.Proof.Gen.ReferenceIdeal
import proofs.«173550_j30494267801973_1_alg».proof.Proof.Gen.ReferenceIdeal.Run
import proofs.«173550_j30494267801973_1_alg».proof.Proof.Gen.ReferenceIdeal.Read
import proofs.«173550_j30494267801973_1_alg».proof.Proof.Gen.Pre_finite_inputs
import proofs.«173550_j30494267801973_1_alg».proof.Proof.Result
import proofs.«173550_j30494267801973_1_alg».proof.Proof.Reference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with each result at its argument's rows times the matrix, of arguments that agree. -/
theorem algebraic : Cert.algebraic_KernelIdeal_ReferenceIdeal := by
  intro m ρ m' ρ' _ hagree
  refine ⟨_, _, Cert.KernelIdeal.Result.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.2]
    exact Cert.ReferenceIdeal.RefValue.dot_eq _ _
  · rw [(hagree c).2.1, (hagree c).2.2]
    exact Cert.ReferenceIdeal.RefValue.dot_eq _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
